-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.FrameBits.lean ====
import proofs.«112425_j68968584839425_2_alg».proof.Proof.Gen.Kernel.Launch
import proofs.«112425_j68968584839425_2_alg».proof.Proof.Gen.Kernel.Skeleton
import proofs.«112425_j68968584839425_2_alg».proof.Proof.Gen.Kernel.Points
import Idealize.ShloMosaic.Lib.Pipeline.FrameBody
import Idealize.ShloMosaic.Lib.Ring
import Idealize.ShloMosaic.Lib.Tactic

/-!
# The frame of the LSTM-cell program

The program is six host operations (the four input-gate weight matrices laid side by side and rounded, the
same for the four recurrent matrices, the four biases laid end to end and given a leading unit axis) followed
by one pipelined region over eight row blocks of 512 rows. The region's body loads three row blocks
(the input, the previous hidden state, the previous cell state), the two whole weight matrices and the bias
row, and stores the new hidden block and the new cell block, each store covering its whole buffer.

This module states what each output buffer holds after the body as a function of the six loaded values,
proves the body's triple, supplies the pipeline's proof data (inputs keep their blocks, outputs receive the
body's two results), and concludes that the program runs to the end without a fault with every output array
at what the pipeline writes back and every other array as the region found it. None of the six host
operations writes an argument array, so the fifteen arguments end as they were launched.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch memory after the six host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at every point, whether the block was fetched at
that point (the three row-block windows, always) or was fetched once at the first point and has not moved since
(the two weight matrices and the bias row). -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from the frame run -/

/-- From a run that ends with every pipeline array at what the proof data say and every other unscoped buffer as
    the region found it: the three row-block arguments are inputs of the pipeline, which never writes them back;
    the twelve weight and bias arguments are staged by no window; and none of them is written by a host
    operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole row block (512 × 1024). -/
abbrev rA : Rect S512x1024 := Rect.unit (s := S512x1024) ![0, 0] S512x1024.size inb_S512x1024_S512x1024_0_0
/-- A whole concatenated weight matrix (1024 × 4096). -/
abbrev rW : Rect S1024x4096 := Rect.unit (s := S1024x4096) ![0, 0] S1024x4096.size inb_S1024x4096_S1024x4096_0_0
/-- The whole bias row (1 × 4096). -/
abbrev rB : Rect S1x4096 := Rect.unit (s := S1x4096) ![0, 0] S1x4096.size inb_S1x4096_S1x4096_0_0

/-! ## What the body leaves in each output buffer -/

/-- The hidden-state buffer after the body: its one store, of the hidden block computed from the six loads. -/
def outH (x0 x1 x2 : Vec F S512x1024 .f32) (x3 x4 : Vec F S1024x4096 .bf16) (x5 : Vec F S1x4096 .f32) : Vec F S512x1024 .f32 :=
  View.canon [⟨rA, k0_pay3 (View.ld x0 rA) (View.ld x1 rA) (View.ld x2 rA) (View.ld x3 rW) (View.ld x4 rW) (View.ld x5 rB)⟩]

/-- The cell-state buffer after the body: its one store, of the cell block computed from the six loads. -/
def outC (x0 x1 x2 : Vec F S512x1024 .f32) (x3 x4 : Vec F S1024x4096 .bf16) (x5 : Vec F S1x4096 .f32) : Vec F S512x1024 .f32 :=
  View.canon [⟨rA, k0_pay2 (View.ld x0 rA) (View.ld x1 rA) (View.ld x2 rA) (View.ld x3 rW) (View.ld x4 rW) (View.ld x5 rB)⟩]

/-- One store through the whole-buffer rectangle covers the buffer. -/
theorem coverA (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 1000000 in
/-- The body, run on whole staging buffers holding the six inputs and anything in the two outputs, returns with the
    inputs as they were, the hidden buffer at `outH` and the cell buffer at `outC` of the inputs. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S512x1024 .f32) (harg7 : arg7.IsWhole) (arg8 : Memref sig .tc .vmem S512x1024 .f32) (harg8 : arg8.IsWhole)
    (x0 x1 x2 : Vec F S512x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The pipeline's proof data -/

/-- The proof data of the pipeline on core `c`: the arrays as the region finds them; after the body at point `t`
    each input buffer still at its block, the hidden buffer at `outH` and the cell buffer at `outC` of the six input
    blocks; the invariant is the untouched rest; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution terminates without a fault, every pipeline
    array ends at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.FrameIdeal.lean ====
import proofs.«112425_j68968584839425_2_alg».proof.Proof.Gen.KernelIdeal.Launch
import proofs.«112425_j68968584839425_2_alg».proof.Proof.Gen.KernelIdeal.Skeleton
import proofs.«112425_j68968584839425_2_alg».proof.Proof.Gen.KernelIdeal.Points
import Idealize.ShloMosaic.Lib.Pipeline.FrameBody
import Idealize.ShloMosaic.Lib.Ring
import Idealize.ShloMosaic.Lib.Tactic

/-!
# The frame of the LSTM-cell program

The program is six host operations (the four input-gate weight matrices laid side by side and rounded, the
same for the four recurrent matrices, the four biases laid end to end and given a leading unit axis) followed
by one pipelined region over eight row blocks of 512 rows. The region's body loads three row blocks
(the input, the previous hidden state, the previous cell state), the two whole weight matrices and the bias
row, and stores the new hidden block and the new cell block, each store covering its whole buffer.

This module states what each output buffer holds after the body as a function of the six loaded values,
proves the body's triple, supplies the pipeline's proof data (inputs keep their blocks, outputs receive the
body's two results), and concludes that the program runs to the end without a fault with every output array
at what the pipeline writes back and every other array as the region found it. None of the six host
operations writes an argument array, so the fifteen arguments end as they were launched.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch memory after the six host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at every point, whether the block was fetched at
that point (the three row-block windows, always) or was fetched once at the first point and has not moved since
(the two weight matrices and the bias row). -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from the frame run -/

/-- From a run that ends with every pipeline array at what the proof data say and every other unscoped buffer as
    the region found it: the three row-block arguments are inputs of the pipeline, which never writes them back;
    the twelve weight and bias arguments are staged by no window; and none of them is written by a host
    operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole row block (512 × 1024). -/
abbrev rA : Rect S512x1024 := Rect.unit (s := S512x1024) ![0, 0] S512x1024.size inb_S512x1024_S512x1024_0_0
/-- A whole concatenated weight matrix (1024 × 4096). -/
abbrev rW : Rect S1024x4096 := Rect.unit (s := S1024x4096) ![0, 0] S1024x4096.size inb_S1024x4096_S1024x4096_0_0
/-- The whole bias row (1 × 4096). -/
abbrev rB : Rect S1x4096 := Rect.unit (s := S1x4096) ![0, 0] S1x4096.size inb_S1x4096_S1x4096_0_0

/-! ## What the body leaves in each output buffer -/

/-- The hidden-state buffer after the body: its one store, of the hidden block computed from the six loads. -/
def outH (x0 x1 x2 : Vec F S512x1024 .f32) (x3 x4 : Vec F S1024x4096 .bf16) (x5 : Vec F S1x4096 .f32) : Vec F S512x1024 .f32 :=
  View.canon [⟨rA, k0_pay3 (View.ld x0 rA) (View.ld x1 rA) (View.ld x2 rA) (View.ld x3 rW) (View.ld x4 rW) (View.ld x5 rB)⟩]

/-- The cell-state buffer after the body: its one store, of the cell block computed from the six loads. -/
def outC (x0 x1 x2 : Vec F S512x1024 .f32) (x3 x4 : Vec F S1024x4096 .bf16) (x5 : Vec F S1x4096 .f32) : Vec F S512x1024 .f32 :=
  View.canon [⟨rA, k0_pay2 (View.ld x0 rA) (View.ld x1 rA) (View.ld x2 rA) (View.ld x3 rW) (View.ld x4 rW) (View.ld x5 rB)⟩]

/-- One store through the whole-buffer rectangle covers the buffer. -/
theorem coverA (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 1000000 in
/-- The body, run on whole staging buffers holding the six inputs and anything in the two outputs, returns with the
    inputs as they were, the hidden buffer at `outH` and the cell buffer at `outC` of the inputs. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S512x1024 .f32) (harg7 : arg7.IsWhole) (arg8 : Memref sig .tc .vmem S512x1024 .f32) (harg8 : arg8.IsWhole)
    (x0 x1 x2 : Vec F S512x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The pipeline's proof data -/

/-- The proof data of the pipeline on core `c`: the arrays as the region finds them; after the body at point `t`
    each input buffer still at its block, the hidden buffer at `outH` and the cell buffer at `outC` of the six input
    blocks; the invariant is the untouched rest; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution terminates without a fault, every pipeline
    array ends at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.Spec.lean ====
import Idealize.ShloMosaic.PureOps.Ideal
import Idealize.ShloMosaic.Lib.ValueIdx

/-!
# One step of an LSTM cell over the extended reals

For a batch of 4096 rows and 1024 features, with input `x`, previous hidden state `h`, previous cell state `c`, and for
each of the four gates (input `i`, forget `f`, candidate `g`, output `o`) an input matrix `W`, a recurrent matrix `U`
and a bias row `b`:

* a gate's pre-activation at row `p`, feature `q` is `(∑ₖ x[p,k]·W[k,q] + ∑ₖ h[p,k]·U[k,q]) + b[q]`;
* the new cell state is `c·σ(pre_f) + tanh(pre_g)·σ(pre_i)`, with `σ z = 1 / (1 + e^(-z))`;
* the new hidden state is `tanh(cell)·σ(pre_o)`.

Both programs of this certificate are shown to compute exactly these two arrays, with these groupings of the sums,
so no law of the extended reals beyond the definitions is used.
-/

noncomputable section

namespace Cert.Lstm

open Idealize.ShloMosaic Idealize.ShloMosaic.ValueIdx
open scoped BigOperators

/-- A matrix of extended reals. -/
abbrev Mat (a b : Nat) : Type := (⟨2, ![a, b]⟩ : Shape).Idx → EReal
/-- A row of extended reals. -/
abbrev Row (a : Nat) : Type := (⟨1, ![a]⟩ : Shape).Idx → EReal

/-- The fifteen arguments of the cell, in the order both programs take them. -/
structure Args where
  x : Mat 4096 1024
  h : Mat 4096 1024
  c : Mat 4096 1024
  Wi : Mat 1024 1024
  Ui : Mat 1024 1024
  bi : Row 1024
  Wf : Mat 1024 1024
  Uf : Mat 1024 1024
  bf : Row 1024
  Wg : Mat 1024 1024
  Ug : Mat 1024 1024
  bg : Row 1024
  Wo : Mat 1024 1024
  Uo : Mat 1024 1024
  bo : Row 1024

/-- A gate's pre-activation at row `p`, feature `q`: the two matrix products, added, then the bias. -/
def pre (x h : Mat 4096 1024) (W U : Mat 1024 1024) (b : Row 1024) (p : Fin 4096) (q : Fin 1024) : EReal :=
  (∑ k : Fin 1024, x (ix2 p k) * W (ix2 k q) + ∑ k : Fin 1024, h (ix2 p k) * U (ix2 k q)) + b (ix1 q)

/-- The new cell state at row `p`, feature `q`. -/
def cell (A : Args) (p : Fin 4096) (q : Fin 1024) : EReal :=
  A.c (ix2 p q) * Ideal.logistic (pre A.x A.h A.Wf A.Uf A.bf p q)
    + Ideal.tanh (pre A.x A.h A.Wg A.Ug A.bg p q) * Ideal.logistic (pre A.x A.h A.Wi A.Ui A.bi p q)

/-- The new hidden state at row `p`, feature `q`. -/
def hidden (A : Args) (p : Fin 4096) (q : Fin 1024) : EReal :=
  Ideal.tanh (cell A p q) * Ideal.logistic (pre A.x A.h A.Wo A.Uo A.bo p q)

/-- The new cell state as an array. -/
def cellArr (A : Args) : Mat 4096 1024 := fun i => cell A (i 0) (i 1)

/-- The new hidden state as an array. -/
def hiddenArr (A : Args) : Mat 4096 1024 := fun i => hidden A (i 0) (i 1)

theorem cellArr_ix2 (A : Args) (p : Fin 4096) (q : Fin 1024) : cellArr A (ix2 p q) = cell A p q := rfl
theorem hiddenArr_ix2 (A : Args) (p : Fin 4096) (q : Fin 1024) : hiddenArr A (ix2 p q) = hidden A p q := rfl

end Cert.Lstm

end
-- ==== Proof.KernelBlock.lean ====
import proofs.«112425_j68968584839425_2_alg».proof.Proof.Gen.KernelIdeal.Skeleton
import proofs.«112425_j68968584839425_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the kernel body computes on one block of 512 rows

The body is handed 512 rows of `x`, `h` and `c`, the two 1024 × 4096 matrices in which the four gates' weight
matrices lie side by side, and the 1 × 4096 row in which the four biases lie end to end. It forms, for every row
`r` and every one of the 4096 columns `j`, `(∑ₖ x[r,k]·Wcat[k,j] + ∑ₖ h[r,k]·Ucat[k,j]) + bcat[0,j]`, cuts the
result into four bands of 1024 columns (gates `i`, `f`, `g`, `o` in that order), and combines the bands
pointwise into the cell and hidden blocks.

When column `o + q` of a concatenated matrix is column `q` of the gate's own matrix, band `o` of that expression
is the gate's pre-activation of `Spec`, so the two stored blocks are blocks of the cell and hidden arrays of `Spec`.
-/

noncomputable section

namespace Cert.Lstm

open Idealize.ShloMosaic Idealize.ShloMosaic.ValueIdx Cert.KernelIdeal Cert.KernelIdeal.Gen
open scoped BigOperators

/-- Row `r` of block `t` is row `512·t + r` of the batch. -/
def row (t : Fin 8) (r : Fin 512) : Fin 4096 := ⟨t.val * 512 + r.val, by have := t.isLt; have := r.isLt; omega⟩

/-- Column `q` of the band that starts at column `o`. -/
def col (o : Nat) (q : Fin 1024) (ho : o + 1024 ≤ 4096) : Fin 4096 := ⟨o + q.val, by have := q.isLt; omega⟩

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-! ## The matrix product of the body at an index -/

theorem lhs_row (i : S512x4096.Idx) (q : dot_S512x1024_S1024x4096_S512x4096_1_0_0_1_n_n.contr.Idx) : (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl

theorem rhs_col (i : S512x4096.Idx) (q : dot_S512x1024_S1024x4096_S512x4096_1_0_0_1_n_n.contr.Idx) : (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

/-- The body's matrix product into a zero accumulator, at row `r` and column `j`, is the sum over the shared axis. -/
theorem mm_apply (a : FVec Ideal S512x1024 .bf16) (w : FVec Ideal S1024x4096 .bf16) (r : Fin 512) (j : Fin 4096) :
    matmul dot_S512x1024_S1024x4096_S512x4096_1_0_0_1_n_n none a w (constant (F := Ideal) S512x4096 .f32 0x00000000#32) (ix2 r j)
      = ∑ k : Fin 1024, a (ix2 r k) * w (ix2 k j) := by
  show FloatOps.matmul dot_S512x1024_S1024x4096_S512x4096_1_0_0_1_n_n none a w (constant (F := Ideal) S512x4096 .f32 0x00000000#32) (ix2 r j) = _
  rw [Ideal.matmul_constant_zero_apply, ← Equiv.sum_comp (contrEquiv1 dot_S512x1024_S1024x4096_S512x4096_1_0_0_1_n_n 1024 rfl rfl).symm]
  refine Finset.sum_congr rfl fun k _ => ?_
  have hk := contrEquiv1_symm_val dot_S512x1024_S1024x4096_S512x4096_1_0_0_1_n_n 1024 rfl rfl k
  have el : dot_S512x1024_S1024x4096_S512x4096_1_0_0_1_n_n.lhsIdx (ix2 r j) ((contrEquiv1 dot_S512x1024_S1024x4096_S512x4096_1_0_0_1_n_n 1024 rfl rfl).symm k) = ix2 r k := funext fun a => Fin.ext (by
    match a with
    | ⟨0, _⟩ => exact lhs_row _ _
    | ⟨1, _⟩ => exact (dot_S512x1024_S1024x4096_S512x4096_1_0_0_1_n_n.lhsIdx_val_of_single rfl _ _).trans hk)
  have er : dot_S512x1024_S1024x4096_S512x4096_1_0_0_1_n_n.rhsIdx (ix2 r j) ((contrEquiv1 dot_S512x1024_S1024x4096_S512x4096_1_0_0_1_n_n 1024 rfl rfl).symm k) = ix2 k j := funext fun a => Fin.ext (by
    match a with
    | ⟨0, _⟩ => exact (dot_S512x1024_S1024x4096_S512x4096_1_0_0_1_n_n.rhsIdx_val_of_single rfl _ _).trans hk
    | ⟨1, _⟩ => exact rhs_col _ _)
  rw [el, er]

/-! ## The body's three values at an index -/

/-- The 4096-column pre-activation row of the body, at row `r` and column `j`. -/
def preBlk (x0 x1 : FVec Ideal S512x1024 .f32) (x3 x4 : FVec Ideal S1024x4096 .bf16) (x5 : FVec Ideal S1x4096 .f32) (r : Fin 512) (j : Fin 4096) : EReal :=
  ((∑ k : Fin 1024, (x0 (ix2 r k) : EReal) * (x3 (ix2 k j) : EReal)) + ∑ k : Fin 1024, (x1 (ix2 r k) : EReal) * (x4 (ix2 k j) : EReal))
    + (x5 (ix2 (0 : Fin 1) j) : EReal)

theorem pay1_apply (x0 x1 : FVec Ideal S512x1024 .f32) (x3 x4 : FVec Ideal S1024x4096 .bf16) (x5 : FVec Ideal S1x4096 .f32) (r : Fin 512) (j : Fin 4096) :
    k0_pay1 (F := Ideal) x0 x1 x3 x4 x5 (ix2 r j) = preBlk x0 x1 x3 x4 x5 r j := by
  unfold k0_pay1 preBlk
  rw [addf_apply, addf_apply, mm_apply, mm_apply, broadcastTo_1b_ab_apply]
  simp only [shapeCast_self, truncf_apply]

/-- The cell block of the body, at row `r` and feature `q`: bands `f` (from column 1024), `g` (from 2048) and `i` (from 0). -/
def cellBlk (x0 x1 x2 : FVec Ideal S512x1024 .f32) (x3 x4 : FVec Ideal S1024x4096 .bf16) (x5 : FVec Ideal S1x4096 .f32) (r : Fin 512) (q : Fin 1024) : EReal :=
  (x2 (ix2 r q) : EReal) * Ideal.logistic (preBlk x0 x1 x3 x4 x5 r (col 1024 q (by decide)))
    + Ideal.tanh (preBlk x0 x1 x3 x4 x5 r (col 2048 q (by decide))) * Ideal.logistic (preBlk x0 x1 x3 x4 x5 r (col 0 q (by decide)))

theorem pay2_apply (x0 x1 x2 : FVec Ideal S512x1024 .f32) (x3 x4 : FVec Ideal S1024x4096 .bf16) (x5 : FVec Ideal S1x4096 .f32) (r : Fin 512) (q : Fin 1024) :
    k0_pay2 (F := Ideal) x0 x1 x2 x3 x4 x5 (ix2 r q) = cellBlk x0 x1 x2 x3 x4 x5 r q := by
  unfold k0_pay2 cellBlk
  rw [addf_apply, mulf_apply, mulf_apply, logistic_apply, logistic_apply, tanh_apply,
    slice2_axis1_apply 1024 _ _ r q (col 1024 q (by decide)) rfl,
    slice2_axis1_apply 2048 _ _ r q (col 2048 q (by decide)) rfl,
    slice2_axis1_apply 0 _ _ r q (col 0 q (by decide)) rfl,
    pay1_apply, pay1_apply, pay1_apply]

/-- The hidden block of the body, at row `r` and feature `q`: the cell block and band `o` (from column 3072). -/
def hiddenBlk (x0 x1 x2 : FVec Ideal S512x1024 .f32) (x3 x4 : FVec Ideal S1024x4096 .bf16) (x5 : FVec Ideal S1x4096 .f32) (r : Fin 512) (q : Fin 1024) : EReal :=
  Ideal.tanh (cellBlk x0 x1 x2 x3 x4 x5 r q) * Ideal.logistic (preBlk x0 x1 x3 x4 x5 r (col 3072 q (by decide)))

theorem pay3_apply (x0 x1 x2 : FVec Ideal S512x1024 .f32) (x3 x4 : FVec Ideal S1024x4096 .bf16) (x5 : FVec Ideal S1x4096 .f32) (r : Fin 512) (q : Fin 1024) :
    k0_pay3 (F := Ideal) x0 x1 x2 x3 x4 x5 (ix2 r q) = hiddenBlk x0 x1 x2 x3 x4 x5 r q := by
  unfold k0_pay3 hiddenBlk
  rw [mulf_apply, tanh_apply, logistic_apply, pay2_apply,
    slice2_axis1_apply 3072 _ _ r q (col 3072 q (by decide)) rfl, pay1_apply]

/-! ## The block's values are the specification's, when the loaded blocks are blocks of the arguments -/

/-- Band `o` of the body's pre-activation row is the gate's pre-activation, when columns `o + q` of the concatenated
    matrices and bias are columns `q` of the gate's own. -/
theorem preBlk_eq (x h : Mat 4096 1024) (W U : Mat 1024 1024) (b : Row 1024) (t : Fin 8) (o : Nat) (ho : o + 1024 ≤ 4096)
    (x0 x1 : FVec Ideal S512x1024 .f32) (x3 x4 : FVec Ideal S1024x4096 .bf16) (x5 : FVec Ideal S1x4096 .f32)
    (h0 : ∀ r k, x0 (ix2 r k) = x (ix2 (row t r) k)) (h1 : ∀ r k, x1 (ix2 r k) = h (ix2 (row t r) k))
    (hW : ∀ k q, x3 (ix2 k (col o q ho)) = W (ix2 k q)) (hU : ∀ k q, x4 (ix2 k (col o q ho)) = U (ix2 k q))
    (hb : ∀ q, x5 (ix2 (0 : Fin 1) (col o q ho)) = b (ix1 q)) (r : Fin 512) (q : Fin 1024) :
    preBlk x0 x1 x3 x4 x5 r (col o q ho) = pre x h W U b (row t r) q := by
  unfold preBlk pre
  simp only [h0, h1, hW, hU, hb]

/-- The six loaded values are block `t` of the arguments: the three row blocks, and the concatenated weights and
    biases band by band. -/
structure BlockOf (A : Args) (t : Fin 8) (x0 x1 x2 : FVec Ideal S512x1024 .f32) (x3 x4 : FVec Ideal S1024x4096 .bf16) (x5 : FVec Ideal S1x4096 .f32) : Prop where
  hx : ∀ r k, x0 (ix2 r k) = A.x (ix2 (row t r) k)
  hh : ∀ r k, x1 (ix2 r k) = A.h (ix2 (row t r) k)
  hc : ∀ r q, x2 (ix2 r q) = A.c (ix2 (row t r) q)
  hWi : ∀ k q, x3 (ix2 k (col 0 q (by decide))) = A.Wi (ix2 k q)
  hWf : ∀ k q, x3 (ix2 k (col 1024 q (by decide))) = A.Wf (ix2 k q)
  hWg : ∀ k q, x3 (ix2 k (col 2048 q (by decide))) = A.Wg (ix2 k q)
  hWo : ∀ k q, x3 (ix2 k (col 3072 q (by decide))) = A.Wo (ix2 k q)
  hUi : ∀ k q, x4 (ix2 k (col 0 q (by decide))) = A.Ui (ix2 k q)
  hUf : ∀ k q, x4 (ix2 k (col 1024 q (by decide))) = A.Uf (ix2 k q)
  hUg : ∀ k q, x4 (ix2 k (col 2048 q (by decide))) = A.Ug (ix2 k q)
  hUo : ∀ k q, x4 (ix2 k (col 3072 q (by decide))) = A.Uo (ix2 k q)
  hbi : ∀ q, x5 (ix2 (0 : Fin 1) (col 0 q (by decide))) = A.bi (ix1 q)
  hbf : ∀ q, x5 (ix2 (0 : Fin 1) (col 1024 q (by decide))) = A.bf (ix1 q)
  hbg : ∀ q, x5 (ix2 (0 : Fin 1) (col 2048 q (by decide))) = A.bg (ix1 q)
  hbo : ∀ q, x5 (ix2 (0 : Fin 1) (col 3072 q (by decide))) = A.bo (ix1 q)

theorem cellBlk_eq {A : Args} {t : Fin 8} {x0 x1 x2 : FVec Ideal S512x1024 .f32} {x3 x4 : FVec Ideal S1024x4096 .bf16} {x5 : FVec Ideal S1x4096 .f32}
    (B : BlockOf A t x0 x1 x2 x3 x4 x5) (r : Fin 512) (q : Fin 1024) :
    cellBlk x0 x1 x2 x3 x4 x5 r q = cell A (row t r) q := by
  unfold cellBlk cell
  rw [preBlk_eq A.x A.h A.Wf A.Uf A.bf t 1024 (by decide) x0 x1 x3 x4 x5 B.hx B.hh B.hWf B.hUf B.hbf,
    preBlk_eq A.x A.h A.Wg A.Ug A.bg t 2048 (by decide) x0 x1 x3 x4 x5 B.hx B.hh B.hWg B.hUg B.hbg,
    preBlk_eq A.x A.h A.Wi A.Ui A.bi t 0 (by decide) x0 x1 x3 x4 x5 B.hx B.hh B.hWi B.hUi B.hbi, B.hc]

theorem hiddenBlk_eq {A : Args} {t : Fin 8} {x0 x1 x2 : FVec Ideal S512x1024 .f32} {x3 x4 : FVec Ideal S1024x4096 .bf16} {x5 : FVec Ideal S1x4096 .f32}
    (B : BlockOf A t x0 x1 x2 x3 x4 x5) (r : Fin 512) (q : Fin 1024) :
    hiddenBlk x0 x1 x2 x3 x4 x5 r q = hidden A (row t r) q := by
  unfold hiddenBlk hidden
  rw [cellBlk_eq B, preBlk_eq A.x A.h A.Wo A.Uo A.bo t 3072 (by decide) x0 x1 x3 x4 x5 B.hx B.hh B.hWo B.hUo B.hbo]

end Cert.Lstm

end
-- ==== Proof.HostArrays.lean ====
import proofs.«112425_j68968584839425_2_alg».proof.Proof.FrameIdeal
import proofs.«112425_j68968584839425_2_alg».proof.Proof.KernelBlock
import Idealize.ShloMosaic.Lib.StableHlo.Run

/-!
# What the region finds in the three arrays the host operations write

Before the region the program lays the four input-gate matrices side by side (columns `1024·n + q` of the result are
columns `q` of matrix `n`, in the order `i`, `f`, `g`, `o`) and rounds the result to the narrower format, which over the
extended reals changes nothing; does the same with the four recurrent matrices; and lays the four biases end to
end, then gives the 4096-vector a leading axis of length one. This module reads those three arrays band by band.
-/

noncomputable section

namespace Cert.KernelIdeal.Fr

open Idealize.ShloMosaic Idealize.ShloMosaic.TcCoe Idealize.ShloMosaic.ValueIdx Idealize.SL.Sem Idealize.ShloMosaic.StableHlo
open Cert.KernelIdeal Cert.KernelIdeal.Gen Cert.Lstm

variable (m : (ℓ : Loc nD τ sig) → Buf (Elt Ideal) ℓ)

/-- The concatenated input-gate matrix, as the region finds it. -/
theorem Wcat_eq (c : Dev nD) : (V m c main_v1 : S1024x4096.Idx → EReal)
    = truncf (F := Ideal) .bf16 (concatenate S1024x4096 1 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩] concatenates_S1024x1024_S1024x1024_S1024x1024_S1024x1024_S1024x4096_d1) bitsLt_bf16_f32 := by
  dsimp only [V, hostOps0]; after_results; rfl

/-- The concatenated recurrent matrix, as the region finds it. -/
theorem Ucat_eq (c : Dev nD) : (V m c main_v3 : S1024x4096.Idx → EReal)
    = truncf (F := Ideal) .bf16 (concatenate S1024x4096 1 [⟨S1024x1024, m ((c : Thread nD τ).loc main_arg4)⟩, ⟨S1024x1024, m ((c : Thread nD τ).loc main_arg7)⟩, ⟨S1024x1024, m ((c : Thread nD τ).loc main_arg10)⟩, ⟨S1024x1024, m ((c : Thread nD τ).loc main_arg13)⟩] concatenates_S1024x1024_S1024x1024_S1024x1024_S1024x1024_S1024x4096_d1) bitsLt_bf16_f32 := by
  dsimp only [V, hostOps0]; after_results; rfl

/-- The concatenated bias row, as the region finds it. -/
theorem bcat_eq (c : Dev nD) : (V m c main_v5 : S1x4096.Idx → EReal)
    = shapeCast S1x4096 (concatenate S4096 0 [⟨S1024, m ((c : Thread nD τ).loc main_arg5)⟩, ⟨S1024, m ((c : Thread nD τ).loc main_arg8)⟩, ⟨S1024, m ((c : Thread nD τ).loc main_arg11)⟩, ⟨S1024, m ((c : Thread nD τ).loc main_arg14)⟩] concatenates_S1024_S1024_S1024_S1024_S4096_d0) shapeCasts_S4096_S1x4096 := by
  dsimp only [V, hostOps0]; after_results; rfl

/-- Band 0 of the concatenated matrix is the gate's own matrix. -/
theorem Wcat_band0 (c : Dev nD) (k q : Fin 1024) :
    (V m c main_v1 : S1024x4096.Idx → EReal) (ix2 k (col 0 q (by decide))) = (m ((c : Thread nD τ).loc main_arg3) : S1024x1024.Idx → EReal) (ix2 k q) := by
  rw [Wcat_eq, truncf_apply]
  exact concatenate_apply_piece (1 : Fin 2) _ _ (ix2 k (col 0 q (by decide))) 0 (by show (0 : Nat) < 4; omega) S1024x1024 _ rfl rfl 0 rfl (ix2 k q)
    (fun b => match b with
      | ⟨0, _⟩ => fun _ => rfl
      | ⟨1, _⟩ => fun h => absurd rfl h) rfl

/-- Band 1 of the concatenated matrix is the gate's own matrix. -/
theorem Wcat_band1 (c : Dev nD) (k q : Fin 1024) :
    (V m c main_v1 : S1024x4096.Idx → EReal) (ix2 k (col 1024 q (by decide))) = (m ((c : Thread nD τ).loc main_arg6) : S1024x1024.Idx → EReal) (ix2 k q) := by
  rw [Wcat_eq, truncf_apply]
  exact concatenate_apply_piece (1 : Fin 2) _ _ (ix2 k (col 1024 q (by decide))) 1 (by show (1 : Nat) < 4; omega) S1024x1024 _ rfl rfl 1024 rfl (ix2 k q)
    (fun b => match b with
      | ⟨0, _⟩ => fun _ => rfl
      | ⟨1, _⟩ => fun h => absurd rfl h) rfl

/-- Band 2 of the concatenated matrix is the gate's own matrix. -/
theorem Wcat_band2 (c : Dev nD) (k q : Fin 1024) :
    (V m c main_v1 : S1024x4096.Idx → EReal) (ix2 k (col 2048 q (by decide))) = (m ((c : Thread nD τ).loc main_arg9) : S1024x1024.Idx → EReal) (ix2 k q) := by
  rw [Wcat_eq, truncf_apply]
  exact concatenate_apply_piece (1 : Fin 2) _ _ (ix2 k (col 2048 q (by decide))) 2 (by show (2 : Nat) < 4; omega) S1024x1024 _ rfl rfl 2048 rfl (ix2 k q)
    (fun b => match b with
      | ⟨0, _⟩ => fun _ => rfl
      | ⟨1, _⟩ => fun h => absurd rfl h) rfl

/-- Band 3 of the concatenated matrix is the gate's own matrix. -/
theorem Wcat_band3 (c : Dev nD) (k q : Fin 1024) :
    (V m c main_v1 : S1024x4096.Idx → EReal) (ix2 k (col 3072 q (by decide))) = (m ((c : Thread nD τ).loc main_arg12) : S1024x1024.Idx → EReal) (ix2 k q) := by
  rw [Wcat_eq, truncf_apply]
  exact concatenate_apply_piece (1 : Fin 2) _ _ (ix2 k (col 3072 q (by decide))) 3 (by show (3 : Nat) < 4; omega) S1024x1024 _ rfl rfl 3072 rfl (ix2 k q)
    (fun b => match b with
      | ⟨0, _⟩ => fun _ => rfl
      | ⟨1, _⟩ => fun h => absurd rfl h) rfl

/-- Band 0 of the concatenated matrix is the gate's own matrix. -/
theorem Ucat_band0 (c : Dev nD) (k q : Fin 1024) :
    (V m c main_v3 : S1024x4096.Idx → EReal) (ix2 k (col 0 q (by decide))) = (m ((c : Thread nD τ).loc main_arg4) : S1024x1024.Idx → EReal) (ix2 k q) := by
  rw [Ucat_eq, truncf_apply]
  exact concatenate_apply_piece (1 : Fin 2) _ _ (ix2 k (col 0 q (by decide))) 0 (by show (0 : Nat) < 4; omega) S1024x1024 _ rfl rfl 0 rfl (ix2 k q)
    (fun b => match b with
      | ⟨0, _⟩ => fun _ => rfl
      | ⟨1, _⟩ => fun h => absurd rfl h) rfl

/-- Band 1 of the concatenated matrix is the gate's own matrix. -/
theorem Ucat_band1 (c : Dev nD) (k q : Fin 1024) :
    (V m c main_v3 : S1024x4096.Idx → EReal) (ix2 k (col 1024 q (by decide))) = (m ((c : Thread nD τ).loc main_arg7) : S1024x1024.Idx → EReal) (ix2 k q) := by
  rw [Ucat_eq, truncf_apply]
  exact concatenate_apply_piece (1 : Fin 2) _ _ (ix2 k (col 1024 q (by decide))) 1 (by show (1 : Nat) < 4; omega) S1024x1024 _ rfl rfl 1024 rfl (ix2 k q)
    (fun b => match b with
      | ⟨0, _⟩ => fun _ => rfl
      | ⟨1, _⟩ => fun h => absurd rfl h) rfl

/-- Band 2 of the concatenated matrix is the gate's own matrix. -/
theorem Ucat_band2 (c : Dev nD) (k q : Fin 1024) :
    (V m c main_v3 : S1024x4096.Idx → EReal) (ix2 k (col 2048 q (by decide))) = (m ((c : Thread nD τ).loc main_arg10) : S1024x1024.Idx → EReal) (ix2 k q) := by
  rw [Ucat_eq, truncf_apply]
  exact concatenate_apply_piece (1 : Fin 2) _ _ (ix2 k (col 2048 q (by decide))) 2 (by show (2 : Nat) < 4; omega) S1024x1024 _ rfl rfl 2048 rfl (ix2 k q)
    (fun b => match b with
      | ⟨0, _⟩ => fun _ => rfl
      | ⟨1, _⟩ => fun h => absurd rfl h) rfl

/-- Band 3 of the concatenated matrix is the gate's own matrix. -/
theorem Ucat_band3 (c : Dev nD) (k q : Fin 1024) :
    (V m c main_v3 : S1024x4096.Idx → EReal) (ix2 k (col 3072 q (by decide))) = (m ((c : Thread nD τ).loc main_arg13) : S1024x1024.Idx → EReal) (ix2 k q) := by
  rw [Ucat_eq, truncf_apply]
  exact concatenate_apply_piece (1 : Fin 2) _ _ (ix2 k (col 3072 q (by decide))) 3 (by show (3 : Nat) < 4; omega) S1024x1024 _ rfl rfl 3072 rfl (ix2 k q)
    (fun b => match b with
      | ⟨0, _⟩ => fun _ => rfl
      | ⟨1, _⟩ => fun h => absurd rfl h) rfl

/-- Band 0 of the concatenated bias row is the gate's own bias. -/
theorem bcat_band0 (c : Dev nD) (q : Fin 1024) :
    (V m c main_v5 : S1x4096.Idx → EReal) (ix2 (0 : Fin 1) (col 0 q (by decide))) = (m ((c : Thread nD τ).loc main_arg5) : S1024.Idx → EReal) (ix1 q) := by
  rw [bcat_eq, shapeCast_a_1a_apply]
  exact concatenate_apply_piece (0 : Fin 1) _ _ (ix1 (col 0 q (by decide))) 0 (by show (0 : Nat) < 4; omega) S1024 _ rfl rfl 0 rfl (ix1 q)
    (fun b => match b with
      | ⟨0, _⟩ => fun h => absurd rfl h) rfl

/-- Band 1 of the concatenated bias row is the gate's own bias. -/
theorem bcat_band1 (c : Dev nD) (q : Fin 1024) :
    (V m c main_v5 : S1x4096.Idx → EReal) (ix2 (0 : Fin 1) (col 1024 q (by decide))) = (m ((c : Thread nD τ).loc main_arg8) : S1024.Idx → EReal) (ix1 q) := by
  rw [bcat_eq, shapeCast_a_1a_apply]
  exact concatenate_apply_piece (0 : Fin 1) _ _ (ix1 (col 1024 q (by decide))) 1 (by show (1 : Nat) < 4; omega) S1024 _ rfl rfl 1024 rfl (ix1 q)
    (fun b => match b with
      | ⟨0, _⟩ => fun h => absurd rfl h) rfl

/-- Band 2 of the concatenated bias row is the gate's own bias. -/
theorem bcat_band2 (c : Dev nD) (q : Fin 1024) :
    (V m c main_v5 : S1x4096.Idx → EReal) (ix2 (0 : Fin 1) (col 2048 q (by decide))) = (m ((c : Thread nD τ).loc main_arg11) : S1024.Idx → EReal) (ix1 q) := by
  rw [bcat_eq, shapeCast_a_1a_apply]
  exact concatenate_apply_piece (0 : Fin 1) _ _ (ix1 (col 2048 q (by decide))) 2 (by show (2 : Nat) < 4; omega) S1024 _ rfl rfl 2048 rfl (ix1 q)
    (fun b => match b with
      | ⟨0, _⟩ => fun h => absurd rfl h) rfl

/-- Band 3 of the concatenated bias row is the gate's own bias. -/
theorem bcat_band3 (c : Dev nD) (q : Fin 1024) :
    (V m c main_v5 : S1x4096.Idx → EReal) (ix2 (0 : Fin 1) (col 3072 q (by decide))) = (m ((c : Thread nD τ).loc main_arg14) : S1024.Idx → EReal) (ix1 q) := by
  rw [bcat_eq, shapeCast_a_1a_apply]
  exact concatenate_apply_piece (0 : Fin 1) _ _ (ix1 (col 3072 q (by decide))) 3 (by show (3 : Nat) < 4; omega) S1024 _ rfl rfl 3072 rfl (ix1 q)
    (fun b => match b with
      | ⟨0, _⟩ => fun h => absurd rfl h) rfl

end Cert.KernelIdeal.Fr

end
-- ==== Proof.KernelValue.lean ====
import proofs.«112425_j68968584839425_2_alg».proof.Proof.HostArrays
import Idealize.ShloMosaic.Lib.Pipeline.Value

/-!
# The two arrays the kernel program writes are the cell and hidden arrays of `Spec`

At grid point `t` the three row-block windows and the two output windows sit at rows `512·t … 512·t + 511`; the two
weight windows and the bias window are the whole arrays the host operations wrote. So the six values the body loads
are block `t` of the arguments, what the body stores is block `t` of the cell and hidden arrays, and the eight blocks
cover all 4096 rows: after the run the two output arrays are the cell and hidden arrays whole.
-/

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lstm

variable (m : (ℓ : Loc nD τ sig) → Buf (Elt Ideal) ℓ) (ρ : Dev nD → PrngReg)

/-- The fifteen arguments as launched on core `c`. -/
def args (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14)⟩

/-- A grid point as a number below eight. -/
def pt (t : Fin cfg0.N) : Fin 8 := ⟨t.val, lt_of_lt_of_eq t.isLt N_0⟩

theorem hz : (![0, 0] : Fin 2 → Nat) = fun _ => 0 := funext fun a => by fin_cases a <;> rfl

/-- The block index of every window at every grid point: the row-block windows move with the point, the weight and
    bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Where a block's entry sits in its array -/

theorem emb_0 (t : Fin cfg0.N) (r : Fin 512) (k : Fin 1024) :
    ((cfg0.win 0).blk t).view.emb (ix2 r k) = ix2 (row (pt t) r) k := by
  funext a; apply Fin.ext
  have e0 := (idx_facts t).1
  have e1 := (idx_facts t).2.1
  match a with
  | ⟨0, _⟩ => show win0_0.index t (0 : Fin 2) * 512 + 1 * r.val = t.val * 512 + r.val; omega
  | ⟨1, _⟩ => show win0_0.index t (1 : Fin 2) * 1024 + 1 * k.val = k.val; omega

theorem emb_1 (t : Fin cfg0.N) (r : Fin 512) (k : Fin 1024) :
    ((cfg0.win 1).blk t).view.emb (ix2 r k) = ix2 (row (pt t) r) k := by
  funext a; apply Fin.ext
  have e0 := (idx_facts t).2.2.1
  have e1 := (idx_facts t).2.2.2.1
  match a with
  | ⟨0, _⟩ => show win0_1.index t (0 : Fin 2) * 512 + 1 * r.val = t.val * 512 + r.val; omega
  | ⟨1, _⟩ => show win0_1.index t (1 : Fin 2) * 1024 + 1 * k.val = k.val; omega

theorem emb_2 (t : Fin cfg0.N) (r : Fin 512) (k : Fin 1024) :
    ((cfg0.win 2).blk t).view.emb (ix2 r k) = ix2 (row (pt t) r) k := by
  funext a; apply Fin.ext
  have e0 := (idx_facts t).2.2.2.2.1
  have e1 := (idx_facts t).2.2.2.2.2.1
  match a with
  | ⟨0, _⟩ => show win0_2.index t (0 : Fin 2) * 512 + 1 * r.val = t.val * 512 + r.val; omega
  | ⟨1, _⟩ => show win0_2.index t (1 : Fin 2) * 1024 + 1 * k.val = k.val; omega

theorem emb_6 (t : Fin cfg0.N) (r : Fin 512) (k : Fin 1024) :
    ((cfg0.win 6).blk t).view.emb (ix2 r k) = ix2 (row (pt t) r) k := by
  funext a; apply Fin.ext
  have e0 := (idx_facts t).2.2.2.2.2.2.1
  have e1 := (idx_facts t).2.2.2.2.2.2.2.1
  match a with
  | ⟨0, _⟩ => show win0_6.index t (0 : Fin 2) * 512 + 1 * r.val = t.val * 512 + r.val; omega
  | ⟨1, _⟩ => show win0_6.index t (1 : Fin 2) * 1024 + 1 * k.val = k.val; omega

theorem emb_7 (t : Fin cfg0.N) (r : Fin 512) (k : Fin 1024) :
    ((cfg0.win 7).blk t).view.emb (ix2 r k) = ix2 (row (pt t) r) k := by
  funext a; apply Fin.ext
  have e0 := (idx_facts t).2.2.2.2.2.2.2.2.1
  have e1 := (idx_facts t).2.2.2.2.2.2.2.2.2.1
  match a with
  | ⟨0, _⟩ => show win0_7.index t (0 : Fin 2) * 512 + 1 * r.val = t.val * 512 + r.val; omega
  | ⟨1, _⟩ => show win0_7.index t (1 : Fin 2) * 1024 + 1 * k.val = k.val; omega

theorem emb_3 (t : Fin cfg0.N) (k : Fin 1024) (j : Fin 4096) :
    ((cfg0.win 3).blk t).view.emb (ix2 k j) = ix2 k j := by
  funext a; apply Fin.ext
  have e0 := (idx_facts t).2.2.2.2.2.2.2.2.2.2.1
  have e1 := (idx_facts t).2.2.2.2.2.2.2.2.2.2.2.1
  match a with
  | ⟨0, _⟩ => show win0_3.index t (0 : Fin 2) * 1024 + 1 * k.val = k.val; omega
  | ⟨1, _⟩ => show win0_3.index t (1 : Fin 2) * 4096 + 1 * j.val = j.val; omega

theorem emb_4 (t : Fin cfg0.N) (k : Fin 1024) (j : Fin 4096) :
    ((cfg0.win 4).blk t).view.emb (ix2 k j) = ix2 k j := by
  funext a; apply Fin.ext
  have e0 := (idx_facts t).2.2.2.2.2.2.2.2.2.2.2.2.1
  have e1 := (idx_facts t).2.2.2.2.2.2.2.2.2.2.2.2.2.1
  match a with
  | ⟨0, _⟩ => show win0_4.index t (0 : Fin 2) * 1024 + 1 * k.val = k.val; omega
  | ⟨1, _⟩ => show win0_4.index t (1 : Fin 2) * 4096 + 1 * j.val = j.val; omega

theorem emb_5 (t : Fin cfg0.N) (u : Fin 1) (j : Fin 4096) :
    ((cfg0.win 5).blk t).view.emb (ix2 u j) = ix2 u j := by
  funext a; apply Fin.ext
  have e0 := (idx_facts t).2.2.2.2.2.2.2.2.2.2.2.2.2.2.1
  have e1 := (idx_facts t).2.2.2.2.2.2.2.2.2.2.2.2.2.2.2
  match a with
  | ⟨0, _⟩ => show win0_5.index t (0 : Fin 2) * 1 + 1 * u.val = u.val; omega
  | ⟨1, _⟩ => show win0_5.index t (1 : Fin 2) * 4096 + 1 * j.val = j.val; omega

/-! ## The loaded values are block `t` of the arguments -/

theorem iblk_0 (c : Dev nD) (t : Fin cfg0.N) (r : Fin 512) (k : Fin 1024) :
    (iblk m c 0 t : S512x1024.Idx → EReal) (ix2 r k) = (m ((c : Thread nD τ).loc main_arg0) : S4096x1024.Idx → EReal) (ix2 (row (pt t) r) k) := by
  show V m c main_arg0 (((cfg0.win 0).blk t).view.emb (ix2 r k)) = _
  rw [emb_0, V_main_arg0]

theorem iblk_1 (c : Dev nD) (t : Fin cfg0.N) (r : Fin 512) (k : Fin 1024) :
    (iblk m c 1 t : S512x1024.Idx → EReal) (ix2 r k) = (m ((c : Thread nD τ).loc main_arg1) : S4096x1024.Idx → EReal) (ix2 (row (pt t) r) k) := by
  show V m c main_arg1 (((cfg0.win 1).blk t).view.emb (ix2 r k)) = _
  rw [emb_1, V_main_arg1]

theorem iblk_2 (c : Dev nD) (t : Fin cfg0.N) (r : Fin 512) (k : Fin 1024) :
    (iblk m c 2 t : S512x1024.Idx → EReal) (ix2 r k) = (m ((c : Thread nD τ).loc main_arg2) : S4096x1024.Idx → EReal) (ix2 (row (pt t) r) k) := by
  show V m c main_arg2 (((cfg0.win 2).blk t).view.emb (ix2 r k)) = _
  rw [emb_2, V_main_arg2]

theorem iblk_3_band0 (c : Dev nD) (t : Fin cfg0.N) (k q : Fin 1024) :
    (iblk m c 3 t : S1024x4096.Idx → EReal) (ix2 k (col 0 q (by decide))) = (m ((c : Thread nD τ).loc main_arg3) : S1024x1024.Idx → EReal) (ix2 k q) := by
  show V m c main_v1 (((cfg0.win 3).blk t).view.emb (ix2 k (col 0 q (by decide)))) = _
  rw [emb_3]
  exact Wcat_band0 m c k q

theorem iblk_3_band1 (c : Dev nD) (t : Fin cfg0.N) (k q : Fin 1024) :
    (iblk m c 3 t : S1024x4096.Idx → EReal) (ix2 k (col 1024 q (by decide))) = (m ((c : Thread nD τ).loc main_arg6) : S1024x1024.Idx → EReal) (ix2 k q) := by
  show V m c main_v1 (((cfg0.win 3).blk t).view.emb (ix2 k (col 1024 q (by decide)))) = _
  rw [emb_3]
  exact Wcat_band1 m c k q

theorem iblk_3_band2 (c : Dev nD) (t : Fin cfg0.N) (k q : Fin 1024) :
    (iblk m c 3 t : S1024x4096.Idx → EReal) (ix2 k (col 2048 q (by decide))) = (m ((c : Thread nD τ).loc main_arg9) : S1024x1024.Idx → EReal) (ix2 k q) := by
  show V m c main_v1 (((cfg0.win 3).blk t).view.emb (ix2 k (col 2048 q (by decide)))) = _
  rw [emb_3]
  exact Wcat_band2 m c k q

theorem iblk_3_band3 (c : Dev nD) (t : Fin cfg0.N) (k q : Fin 1024) :
    (iblk m c 3 t : S1024x4096.Idx → EReal) (ix2 k (col 3072 q (by decide))) = (m ((c : Thread nD τ).loc main_arg12) : S1024x1024.Idx → EReal) (ix2 k q) := by
  show V m c main_v1 (((cfg0.win 3).blk t).view.emb (ix2 k (col 3072 q (by decide)))) = _
  rw [emb_3]
  exact Wcat_band3 m c k q

theorem iblk_4_band0 (c : Dev nD) (t : Fin cfg0.N) (k q : Fin 1024) :
    (iblk m c 4 t : S1024x4096.Idx → EReal) (ix2 k (col 0 q (by decide))) = (m ((c : Thread nD τ).loc main_arg4) : S1024x1024.Idx → EReal) (ix2 k q) := by
  show V m c main_v3 (((cfg0.win 4).blk t).view.emb (ix2 k (col 0 q (by decide)))) = _
  rw [emb_4]
  exact Ucat_band0 m c k q

theorem iblk_4_band1 (c : Dev nD) (t : Fin cfg0.N) (k q : Fin 1024) :
    (iblk m c 4 t : S1024x4096.Idx → EReal) (ix2 k (col 1024 q (by decide))) = (m ((c : Thread nD τ).loc main_arg7) : S1024x1024.Idx → EReal) (ix2 k q) := by
  show V m c main_v3 (((cfg0.win 4).blk t).view.emb (ix2 k (col 1024 q (by decide)))) = _
  rw [emb_4]
  exact Ucat_band1 m c k q

theorem iblk_4_band2 (c : Dev nD) (t : Fin cfg0.N) (k q : Fin 1024) :
    (iblk m c 4 t : S1024x4096.Idx → EReal) (ix2 k (col 2048 q (by decide))) = (m ((c : Thread nD τ).loc main_arg10) : S1024x1024.Idx → EReal) (ix2 k q) := by
  show V m c main_v3 (((cfg0.win 4).blk t).view.emb (ix2 k (col 2048 q (by decide)))) = _
  rw [emb_4]
  exact Ucat_band2 m c k q

theorem iblk_4_band3 (c : Dev nD) (t : Fin cfg0.N) (k q : Fin 1024) :
    (iblk m c 4 t : S1024x4096.Idx → EReal) (ix2 k (col 3072 q (by decide))) = (m ((c : Thread nD τ).loc main_arg13) : S1024x1024.Idx → EReal) (ix2 k q) := by
  show V m c main_v3 (((cfg0.win 4).blk t).view.emb (ix2 k (col 3072 q (by decide)))) = _
  rw [emb_4]
  exact Ucat_band3 m c k q

theorem iblk_5_band0 (c : Dev nD) (t : Fin cfg0.N) (q : Fin 1024) :
    (iblk m c 5 t : S1x4096.Idx → EReal) (ix2 (0 : Fin 1) (col 0 q (by decide))) = (m ((c : Thread nD τ).loc main_arg5) : S1024.Idx → EReal) (ix1 q) := by
  show V m c main_v5 (((cfg0.win 5).blk t).view.emb (ix2 (0 : Fin 1) (col 0 q (by decide)))) = _
  rw [emb_5]
  exact bcat_band0 m c q

theorem iblk_5_band1 (c : Dev nD) (t : Fin cfg0.N) (q : Fin 1024) :
    (iblk m c 5 t : S1x4096.Idx → EReal) (ix2 (0 : Fin 1) (col 1024 q (by decide))) = (m ((c : Thread nD τ).loc main_arg8) : S1024.Idx → EReal) (ix1 q) := by
  show V m c main_v5 (((cfg0.win 5).blk t).view.emb (ix2 (0 : Fin 1) (col 1024 q (by decide)))) = _
  rw [emb_5]
  exact bcat_band1 m c q

theorem iblk_5_band2 (c : Dev nD) (t : Fin cfg0.N) (q : Fin 1024) :
    (iblk m c 5 t : S1x4096.Idx → EReal) (ix2 (0 : Fin 1) (col 2048 q (by decide))) = (m ((c : Thread nD τ).loc main_arg11) : S1024.Idx → EReal) (ix1 q) := by
  show V m c main_v5 (((cfg0.win 5).blk t).view.emb (ix2 (0 : Fin 1) (col 2048 q (by decide)))) = _
  rw [emb_5]
  exact bcat_band2 m c q

theorem iblk_5_band3 (c : Dev nD) (t : Fin cfg0.N) (q : Fin 1024) :
    (iblk m c 5 t : S1x4096.Idx → EReal) (ix2 (0 : Fin 1) (col 3072 q (by decide))) = (m ((c : Thread nD τ).loc main_arg14) : S1024.Idx → EReal) (ix1 q) := by
  show V m c main_v5 (((cfg0.win 5).blk t).view.emb (ix2 (0 : Fin 1) (col 3072 q (by decide)))) = _
  rw [emb_5]
  exact bcat_band3 m c q

/-- The six loaded values at point `t` are block `t` of the arguments. -/
theorem blockOf (c : Dev nD) (t : Fin cfg0.N) :
    BlockOf (args m c) (pt t) (iblk m c 0 t) (iblk m c 1 t) (iblk m c 2 t) (iblk m c 3 t) (iblk m c 4 t) (iblk m c 5 t) where
  hx := iblk_0 m c t
  hh := iblk_1 m c t
  hc := iblk_2 m c t
  hWi := iblk_3_band0 m c t
  hWf := iblk_3_band1 m c t
  hWg := iblk_3_band2 m c t
  hWo := iblk_3_band3 m c t
  hUi := iblk_4_band0 m c t
  hUf := iblk_4_band1 m c t
  hUg := iblk_4_band2 m c t
  hUo := iblk_4_band3 m c t
  hbi := iblk_5_band0 m c t
  hbf := iblk_5_band1 m c t
  hbg := iblk_5_band2 m c t
  hbo := iblk_5_band3 m c t

/-! ## What each point writes back -/

/-- Point `t` writes back block `t` of the hidden array. -/
theorem flushedH_eq (c : Dev nD) (t : Fin cfg0.N) :
    (dats m 0 c).flushed 6 t = ((cfg0.win 6).blk t).view.read (Elt Ideal) (hiddenArr (args m c)) := by
  show (cfg0.win 6).cut (grid0.coords t) ((dats m 0 c).after 6 t) = _
  rw [after0_6]
  unfold outH
  rw [View.canon_unit_zero hz]
  simp only [View.ld_unit_zero (S := S512x1024) hz, View.ld_unit_zero (S := S1024x4096) hz, View.ld_unit_zero (S := S1x4096) hz]
  funext j
  obtain ⟨r, q, rfl⟩ : ∃ (r : Fin 512) (q : Fin 1024), j = ix2 r q := ⟨j 0, j 1, eq_ix2 j⟩
  show k0_pay3 (F := Ideal) (iblk m c 0 t) (iblk m c 1 t) (iblk m c 2 t) (iblk m c 3 t) (iblk m c 4 t) (iblk m c 5 t) (ix2 r q)
    = hiddenArr (args m c) (((cfg0.win 6).blk t).view.emb (ix2 r q))
  rw [emb_6, hiddenArr_ix2]
  exact (pay3_apply _ _ _ _ _ _ r q).trans (hiddenBlk_eq (blockOf m c t) r q)

/-- Point `t` writes back block `t` of the cell array. -/
theorem flushedC_eq (c : Dev nD) (t : Fin cfg0.N) :
    (dats m 0 c).flushed 7 t = ((cfg0.win 7).blk t).view.read (Elt Ideal) (cellArr (args m c)) := by
  show (cfg0.win 7).cut (grid0.coords t) ((dats m 0 c).after 7 t) = _
  rw [after0_7]
  unfold outC
  rw [View.canon_unit_zero hz]
  simp only [View.ld_unit_zero (S := S512x1024) hz, View.ld_unit_zero (S := S1024x4096) hz, View.ld_unit_zero (S := S1x4096) hz]
  funext j
  obtain ⟨r, q, rfl⟩ : ∃ (r : Fin 512) (q : Fin 1024), j = ix2 r q := ⟨j 0, j 1, eq_ix2 j⟩
  show k0_pay2 (F := Ideal) (iblk m c 0 t) (iblk m c 1 t) (iblk m c 2 t) (iblk m c 3 t) (iblk m c 4 t) (iblk m c 5 t) (ix2 r q)
    = cellArr (args m c) (((cfg0.win 7).blk t).view.emb (ix2 r q))
  rw [emb_7, cellArr_ix2]
  exact (pay2_apply _ _ _ _ _ _ r q).trans (cellBlk_eq (blockOf m c t) r q)

/-! ## The eight blocks cover the array -/

theorem mem_blk6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6_0).slice (win0_6.rect t)).set ↔ _
  rw [View.set_slice_whole, Rect.mem_set_unit]
  exact Iff.rfl

/-- Row `p` lies in the block of point `p / 512`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  refine ⟨t, flush0_6 t, ?_⟩
  rw [mem_blk6]
  have e0 := (idx_facts t).2.2.2.2.2.2.1
  have e1 := (idx_facts t).2.2.2.2.2.2.2.1
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem mem_blk7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_1).slice (win0_7.rect t)).set ↔ _
  rw [View.set_slice_whole, Rect.mem_set_unit]
  exact Iff.rfl

/-- Row `p` lies in the block of point `p / 512`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  refine ⟨t, flush0_7 t, ?_⟩
  rw [mem_blk7]
  have e0 := (idx_facts t).2.2.2.2.2.2.2.2.1
  have e1 := (idx_facts t).2.2.2.2.2.2.2.2.2.1
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-! ## The arrays after the run -/

theorem finalH (c : Dev nD) : (dats m 0 c).arrAt 6 cfg0.N = hiddenArr (args m c) :=
  (dats m 0 c).arrAt_eq_of_cover 6 (hiddenArr (args m c)) (fun t _ => flushedH_eq m c t) cover6

theorem finalC (c : Dev nD) : (dats m 0 c).arrAt 7 cfg0.N = cellArr (args m c) :=
  (dats m 0 c).arrAt_eq_of_cover 7 (cellArr (args m c)) (fun t _ => flushedC_eq m c t) cover7

/-- Every weakly fair execution of the kernel program terminates without a fault, with the first result the hidden array,
    the second the cell array, and the fifteen arguments as launched. -/
theorem run_value : θ_run defs (onTc (τ := τ) (main (F := Ideal))) ⟨m, fun _ => 0, ρ⟩ fun r => ∀ c : Dev nD,
      r.2.mem ((c.tc : Thread nD τ).loc main_v6_0) = hiddenArr (args m c)
      ∧ r.2.mem ((c.tc : Thread nD τ).loc main_v6_1) = cellArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (finalH m c), ((h c).1 7).trans (finalC m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Fr

end
-- ==== Proof.RefSpec.lean ====
import proofs.«112425_j68968584839425_2_alg».proof.Proof.Gen.ReferenceIdeal.Read
import proofs.«112425_j68968584839425_2_alg».proof.Proof.Spec
import Idealize.ShloMosaic.Lib.IdealHost

/-!
# The reference computes the LSTM cell of `Spec`

The reference program is read one operation at a time. Each gate's pre-activation is two matrix products (sums over
the shared axis of length 1024), their sum, and the bias broadcast over the rows; each sigmoid is spelt
`1 / (1 + exp (-z))`, which is the logistic function; the cell and hidden states combine them pointwise.
-/

noncomputable section

namespace Cert.Lstm

open Idealize.ShloMosaic Idealize.ShloMosaic.ValueIdx Cert.ReferenceIdeal
open scoped BigOperators

/-- The reference's pre-activation of gate `f` is `pre`: its two products are the sums over the shared axis, and its
    bias, broadcast over the rows, is read at the feature. -/
theorem pre_f (x h : Mat 4096 1024) (W U : Mat 1024 1024) (b : Row 1024) (p : Fin 4096) (q : Fin 1024) :
    Read.val_main_v5 (F := Ideal) x h W U b (ix2 p q) = pre x h W U b p q := by
  have el0 : ∀ k, Read.lidx_main_v0 (ix2 p q) k = ix2 p k := fun k => funext fun a => Fin.ext (by match a with | ⟨0, _⟩ => rfl | ⟨1, _⟩ => rfl)
  have er0 : ∀ k, Read.ridx_main_v0 (ix2 p q) k = ix2 k q := fun k => funext fun a => Fin.ext (by match a with | ⟨0, _⟩ => rfl | ⟨1, _⟩ => rfl)
  have el1 : ∀ k, Read.lidx_main_v1 (ix2 p q) k = ix2 p k := fun k => funext fun a => Fin.ext (by match a with | ⟨0, _⟩ => rfl | ⟨1, _⟩ => rfl)
  have er1 : ∀ k, Read.ridx_main_v1 (ix2 p q) k = ix2 k q := fun k => funext fun a => Fin.ext (by match a with | ⟨0, _⟩ => rfl | ⟨1, _⟩ => rfl)
  have eb : Read.idx_main_v3 (Read.idx_main_v4 (ix2 p q)) = ix1 q :=
    funext fun a => Fin.ext (by match a with | ⟨0, _⟩ => rfl)
  rw [Read.val_main_v5_apply, Read.val_main_v2_apply, Read.val_main_v0_apply, Read.val_main_v1_apply,
    Read.val_main_v4_apply, Read.val_main_v3_apply]
  simp only [el0, er0, el1, er1, eb]
  rfl

/-- The reference's pre-activation of gate `i` is `pre`: its two products are the sums over the shared axis, and its
    bias, broadcast over the rows, is read at the feature. -/
theorem pre_i (x h : Mat 4096 1024) (W U : Mat 1024 1024) (b : Row 1024) (p : Fin 4096) (q : Fin 1024) :
    Read.val_main_v17 (F := Ideal) x h W U b (ix2 p q) = pre x h W U b p q := by
  have el0 : ∀ k, Read.lidx_main_v12 (ix2 p q) k = ix2 p k := fun k => funext fun a => Fin.ext (by match a with | ⟨0, _⟩ => rfl | ⟨1, _⟩ => rfl)
  have er0 : ∀ k, Read.ridx_main_v12 (ix2 p q) k = ix2 k q := fun k => funext fun a => Fin.ext (by match a with | ⟨0, _⟩ => rfl | ⟨1, _⟩ => rfl)
  have el1 : ∀ k, Read.lidx_main_v13 (ix2 p q) k = ix2 p k := fun k => funext fun a => Fin.ext (by match a with | ⟨0, _⟩ => rfl | ⟨1, _⟩ => rfl)
  have er1 : ∀ k, Read.ridx_main_v13 (ix2 p q) k = ix2 k q := fun k => funext fun a => Fin.ext (by match a with | ⟨0, _⟩ => rfl | ⟨1, _⟩ => rfl)
  have eb : Read.idx_main_v15 (Read.idx_main_v16 (ix2 p q)) = ix1 q :=
    funext fun a => Fin.ext (by match a with | ⟨0, _⟩ => rfl)
  rw [Read.val_main_v17_apply, Read.val_main_v14_apply, Read.val_main_v12_apply, Read.val_main_v13_apply,
    Read.val_main_v16_apply, Read.val_main_v15_apply]
  simp only [el0, er0, el1, er1, eb]
  rfl

/-- The reference's pre-activation of gate `o` is `pre`: its two products are the sums over the shared axis, and its
    bias, broadcast over the rows, is read at the feature. -/
theorem pre_o (x h : Mat 4096 1024) (W U : Mat 1024 1024) (b : Row 1024) (p : Fin 4096) (q : Fin 1024) :
    Read.val_main_v29 (F := Ideal) x h W U b (ix2 p q) = pre x h W U b p q := by
  have el0 : ∀ k, Read.lidx_main_v24 (ix2 p q) k = ix2 p k := fun k => funext fun a => Fin.ext (by match a with | ⟨0, _⟩ => rfl | ⟨1, _⟩ => rfl)
  have er0 : ∀ k, Read.ridx_main_v24 (ix2 p q) k = ix2 k q := fun k => funext fun a => Fin.ext (by match a with | ⟨0, _⟩ => rfl | ⟨1, _⟩ => rfl)
  have el1 : ∀ k, Read.lidx_main_v25 (ix2 p q) k = ix2 p k := fun k => funext fun a => Fin.ext (by match a with | ⟨0, _⟩ => rfl | ⟨1, _⟩ => rfl)
  have er1 : ∀ k, Read.ridx_main_v25 (ix2 p q) k = ix2 k q := fun k => funext fun a => Fin.ext (by match a with | ⟨0, _⟩ => rfl | ⟨1, _⟩ => rfl)
  have eb : Read.idx_main_v27 (Read.idx_main_v28 (ix2 p q)) = ix1 q :=
    funext fun a => Fin.ext (by match a with | ⟨0, _⟩ => rfl)
  rw [Read.val_main_v29_apply, Read.val_main_v26_apply, Read.val_main_v24_apply, Read.val_main_v25_apply,
    Read.val_main_v28_apply, Read.val_main_v27_apply]
  simp only [el0, er0, el1, er1, eb]
  rfl

/-- The reference's pre-activation of gate `g` is `pre`: its two products are the sums over the shared axis, and its
    bias, broadcast over the rows, is read at the feature. -/
theorem pre_g (x h : Mat 4096 1024) (W U : Mat 1024 1024) (b : Row 1024) (p : Fin 4096) (q : Fin 1024) :
    Read.val_main_v41 (F := Ideal) x h W U b (ix2 p q) = pre x h W U b p q := by
  have el0 : ∀ k, Read.lidx_main_v36 (ix2 p q) k = ix2 p k := fun k => funext fun a => Fin.ext (by match a with | ⟨0, _⟩ => rfl | ⟨1, _⟩ => rfl)
  have er0 : ∀ k, Read.ridx_main_v36 (ix2 p q) k = ix2 k q := fun k => funext fun a => Fin.ext (by match a with | ⟨0, _⟩ => rfl | ⟨1, _⟩ => rfl)
  have el1 : ∀ k, Read.lidx_main_v37 (ix2 p q) k = ix2 p k := fun k => funext fun a => Fin.ext (by match a with | ⟨0, _⟩ => rfl | ⟨1, _⟩ => rfl)
  have er1 : ∀ k, Read.ridx_main_v37 (ix2 p q) k = ix2 k q := fun k => funext fun a => Fin.ext (by match a with | ⟨0, _⟩ => rfl | ⟨1, _⟩ => rfl)
  have eb : Read.idx_main_v39 (Read.idx_main_v40 (ix2 p q)) = ix1 q :=
    funext fun a => Fin.ext (by match a with | ⟨0, _⟩ => rfl)
  rw [Read.val_main_v41_apply, Read.val_main_v38_apply, Read.val_main_v36_apply, Read.val_main_v37_apply,
    Read.val_main_v40_apply, Read.val_main_v39_apply]
  simp only [el0, er0, el1, er1, eb]
  rfl

/-- The reference's gate `f`, spelt as one over one plus the exponential of the negated pre-activation, is the
    logistic function of the pre-activation. -/
theorem sig_f (x h : Mat 4096 1024) (W U : Mat 1024 1024) (b : Row 1024) (i : (⟨2, ![4096, 1024]⟩ : Shape).Idx) :
    Read.val_main_v11 (F := Ideal) x h W U b i = Ideal.logistic (Read.val_main_v5 (F := Ideal) x h W U b i) := by
  rw [Read.val_main_v11_apply, Read.val_main_v10_apply, Read.val_main_cst_0_apply, Read.val_main_v9_apply,
    Read.val_main_v8_apply, Read.val_main_cst_apply, Read.val_main_v7_apply, Read.val_main_v6_apply]
  simp only [Ideal.ofBits_def, Ideal.ofBits_one_f32]
  rfl

/-- The reference's gate `i`, spelt as one over one plus the exponential of the negated pre-activation, is the
    logistic function of the pre-activation. -/
theorem sig_i (x h : Mat 4096 1024) (W U : Mat 1024 1024) (b : Row 1024) (i : (⟨2, ![4096, 1024]⟩ : Shape).Idx) :
    Read.val_main_v23 (F := Ideal) x h W U b i = Ideal.logistic (Read.val_main_v17 (F := Ideal) x h W U b i) := by
  rw [Read.val_main_v23_apply, Read.val_main_v22_apply, Read.val_main_cst_2_apply, Read.val_main_v21_apply,
    Read.val_main_v20_apply, Read.val_main_cst_1_apply, Read.val_main_v19_apply, Read.val_main_v18_apply]
  simp only [Ideal.ofBits_def, Ideal.ofBits_one_f32]
  rfl

/-- The reference's gate `o`, spelt as one over one plus the exponential of the negated pre-activation, is the
    logistic function of the pre-activation. -/
theorem sig_o (x h : Mat 4096 1024) (W U : Mat 1024 1024) (b : Row 1024) (i : (⟨2, ![4096, 1024]⟩ : Shape).Idx) :
    Read.val_main_v35 (F := Ideal) x h W U b i = Ideal.logistic (Read.val_main_v29 (F := Ideal) x h W U b i) := by
  rw [Read.val_main_v35_apply, Read.val_main_v34_apply, Read.val_main_cst_4_apply, Read.val_main_v33_apply,
    Read.val_main_v32_apply, Read.val_main_cst_3_apply, Read.val_main_v31_apply, Read.val_main_v30_apply]
  simp only [Ideal.ofBits_def, Ideal.ofBits_one_f32]
  rfl

/-- The reference's second result is the new cell state. -/
theorem ref_cell (A : Args) :
    Read.val_main_v45 (F := Ideal) A.x A.h A.c A.Wi A.Ui A.bi A.Wf A.Uf A.bf A.Wg A.Ug A.bg = cellArr A := by
  funext i
  obtain ⟨p, q, rfl⟩ : ∃ (p : Fin 4096) (q : Fin 1024), i = ix2 p q := ⟨i 0, i 1, eq_ix2 i⟩
  rw [Read.val_main_v45_apply, Read.val_main_v43_apply, Read.val_main_v44_apply, Read.val_main_v42_apply,
    sig_f, sig_i, pre_f, pre_i, pre_g]
  rfl

/-- The reference's first result is the new hidden state. -/
theorem ref_hidden (A : Args) :
    Read.val_main_v47 (F := Ideal) A.x A.h A.c A.Wi A.Ui A.bi A.Wf A.Uf A.bf A.Wg A.Ug A.bg A.Wo A.Uo A.bo = hiddenArr A := by
  funext i
  obtain ⟨p, q, rfl⟩ : ∃ (p : Fin 4096) (q : Fin 1024), i = ix2 p q := ⟨i 0, i 1, eq_ix2 i⟩
  rw [Read.val_main_v47_apply, Read.val_main_v46_apply, sig_o, pre_o, congrFun (ref_cell A) (ix2 p q)]
  rfl

end Cert.Lstm

end
-- ==== Proof.lean ====
/-
  One step of an LSTM cell, as a pipelined kernel and as plain array code, agree over the extended reals.

  The kernel program lays the four gates' input matrices side by side into one 1024 × 4096 matrix (and likewise the
  recurrent matrices and the biases), and on each of eight blocks of 512 rows forms
  `x·Wcat + h·Ucat + bcat` with two wide matrix products, cuts the 4096 columns into the four gates' bands, and
  combines them: `cell = c·σ(f) + tanh(g)·σ(i)`, `hidden = tanh(cell)·σ(o)`. The reference forms each gate's
  `x·W + h·U + b` with its own two products and spells `σ z` as `1 / (1 + exp(-z))`.

  Over the extended reals a change of float format is the identity and every product here is a plain sum over the
  shared axis, so column `1024·n + q` of `x·Wcat` is column `q` of `x·Wₙ`, term by term and in the same order; the two
  sides add their three summands in the same grouping, and the kernel's logistic operation is by definition
  `1 / (1 + exp(-z))`. Hence both programs compute the arrays `hiddenArr` and `cellArr` of `Proof/Spec.lean`, and no
  algebraic law — in particular nothing that would need the inputs to be finite — is used.

  The modules: `Spec` (the two arrays), `RefSpec` (the reference computes them), `KernelBlock` (the kernel body
  computes a block of them), `FrameIdeal` / `FrameBits` (each kernel program runs to the end, faults nowhere and leaves
  its arguments unchanged; its output arrays are what the eight grid points write back), `HostArrays` (the concatenated
  arrays band by band), `KernelValue` (the eight blocks written back are the two arrays whole).
-/
import proofs.«112425_j68968584839425_2_alg».proof.Defs
import proofs.«112425_j68968584839425_2_alg».proof.Proof.FrameBits
import proofs.«112425_j68968584839425_2_alg».proof.Proof.KernelValue
import proofs.«112425_j68968584839425_2_alg».proof.Proof.RefSpec
import proofs.«112425_j68968584839425_2_alg».proof.Proof.Gen.ReferenceIdeal
import proofs.«112425_j68968584839425_2_alg».proof.Proof.Gen.Pre_finite_inputs
import Idealize.ShloMosaic.Adequacy
import Idealize.ShloMosaic.Init

noncomputable section

namespace Cert.Proof

open Idealize.ShloMosaic Idealize.SL.Sem

/-- The kernel program, read bit for bit, runs to the end and leaves its arguments unchanged. -/
theorem frame_k : Cert.frame_Kernel := fun m ρ _ => Cert.Kernel.Fr.frame m ρ

/-- The same program read over the extended reals. -/
theorem frame_ki : Cert.frame_KernelIdeal := fun m ρ _ => Cert.KernelIdeal.Fr.frame m ρ

/-- The reference runs to the end and leaves its arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the hidden array first and the cell array second, as functions of arguments that agree. -/
theorem algebraic : Cert.algebraic_KernelIdeal_ReferenceIdeal := by
  intro m ρ m' ρ' _ hagree
  refine ⟨fun c => Cert.Lstm.hiddenArr (Cert.KernelIdeal.Fr.args m c), fun c => Cert.Lstm.cellArr (Cert.KernelIdeal.Fr.args m c),
    Cert.KernelIdeal.Fr.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v47_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact Cert.Lstm.ref_hidden (Cert.KernelIdeal.Fr.args m c)
  · rw [Cert.ReferenceIdeal.Read.val_main_v45_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
    exact Cert.Lstm.ref_cell (Cert.KernelIdeal.Fr.args m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
